-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S1000x128 : Shape := ⟨2, ![1000, 128]⟩
abbrev S1000x16 : Shape := ⟨2, ![1000, 16]⟩
abbrev S3300000x16 : Shape := ⟨2, ![3300000, 16]⟩
abbrev S6600x16 : Shape := ⟨2, ![6600, 16]⟩
abbrev S6600x1 : Shape := ⟨2, ![6600, 1]⟩
abbrev S1x16 : Shape := ⟨2, ![1, 16]⟩
abbrev S100000x1 : Shape := ⟨2, ![100000, 1]⟩
abbrev S1000x1 : Shape := ⟨2, ![1000, 1]⟩
abbrev S1x1 : Shape := ⟨2, ![1, 1]⟩

abbrev nBuf : Space → Nat
  | .hbm => 86
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000x16, .f32⟩
  | .hbm, ⟨67, _⟩ => ⟨S100000x16, .f32⟩
  | .hbm, ⟨68, _⟩ => ⟨S100000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x1, .f32⟩
  | .hbm, ⟨78, _⟩ => ⟨S3300000x1, .f32⟩
  | .hbm, ⟨79, _⟩ => ⟨S_, .f32⟩
  | .hbm, ⟨80, _⟩ => ⟨S100000x1, .f32⟩
  | .hbm, ⟨81, _⟩ => ⟨S3300000x1, .i32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | .local _ .vmem, ⟨0, _⟩ => ⟨S1000x128, .f32⟩
  | .local _ .vmem, ⟨1, _⟩ => ⟨S1000x128, .f32⟩
  | .local _ .vmem, ⟨2, _⟩ => ⟨S128x16, .f32⟩
  | .local _ .vmem, ⟨3, _⟩ => ⟨S1000x16, .f32⟩
  | .local _ .vmem, ⟨4, _⟩ => ⟨S1000x16, .f32⟩
  | .local _ .vmem, ⟨5, _⟩ => ⟨S6600x16, .f32⟩
  | .local _ .vmem, ⟨6, _⟩ => ⟨S6600x16, .f32⟩
  | .local _ .vmem, ⟨7, _⟩ => ⟨S6600x1, .f32⟩
  | .local _ .vmem, ⟨8, _⟩ => ⟨S6600x1, .f32⟩
  | .local _ .vmem, ⟨9, _⟩ => ⟨S6600x16, .f32⟩
  | .local _ .vmem, ⟨10, _⟩ => ⟨S6600x16, .f32⟩
  | .local _ .vmem, ⟨11, _⟩ => ⟨S1000x16, .f32⟩
  | .local _ .vmem, ⟨12, _⟩ => ⟨S1000x16, .f32⟩
  | .local _ .vmem, ⟨13, _⟩ => ⟨S16x1, .f32⟩
  | .local _ .vmem, ⟨14, _⟩ => ⟨S1000x1, .f32⟩
  | .local _ .vmem, ⟨15, _⟩ => ⟨S1000x1, .f32⟩
  | .local _ .vmem, ⟨16, _⟩ => ⟨S6600x1, .f32⟩
  | .local _ .vmem, ⟨17, _⟩ => ⟨S6600x1, .f32⟩
  | .local _ .vmem, ⟨18, _⟩ => ⟨S6600x1, .f32⟩
  | .local _ .vmem, ⟨19, _⟩ => ⟨S6600x1, .f32⟩
  | .local _ .vmem, ⟨20, _⟩ => ⟨S6600x1, .f32⟩
  | .local _ .vmem, ⟨21, _⟩ => ⟨S6600x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call1_cst : Ref sig .tc := ⟨.hbm, 65, rfl⟩
abbrev main_call1_v0 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6600x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6600x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6600x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6600x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6600x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6600x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S3300000_S3300000x1 : S3300000.ShapeCasts S3300000x1
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S1000x16_S1000x16_0_0 : ∀ a, (![0, 0] : Fin 2 → Nat) a + S1000x16.size a ≤ S1000x16.size a
  h_S1000x16 : 0 < S1000x16.numel
  inb_S6600x16_S6600x16_0_0 : ∀ a, (![0, 0] : Fin 2 → Nat) a + S6600x16.size a ≤ S6600x16.size a
  h_S6600x16 : 0 < S6600x16.numel
  shapeCasts_S6600x16_S6600x16 : S6600x16.ShapeCasts S6600x16
  inb_S6600x1_S6600x1_0_0 : ∀ a, (![0, 0] : Fin 2 → Nat) a + S6600x1.size a ≤ S6600x1.size a
  h_S6600x1 : 0 < S6600x1.numel
  shapeCasts_S6600x1_S6600x1 : S6600x1.ShapeCasts S6600x1
  broadcasts_S6600x1_S6600x16 : S6600x1.Broadcasts S6600x16
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S1000x16_S1000x16 : S1000x16.ShapeCasts S1000x16
  inb_S16x1_S16x1_0_0 : ∀ a, (![0, 0] : Fin 2 → Nat) a + S16x1.size a ≤ S16x1.size a
  h_S16x1 : 0 < S16x1.numel
  inb_S1000x1_S1000x1_0_0 : ∀ a, (![0, 0] : Fin 2 → Nat) a + S1000x1.size a ≤ S1000x1.size a
  h_S1000x1 : 0 < S1000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S1000x128_S128x16_S1000x16_1_0_0_1_n_n_wf : DotDims.WF S1000x128 S128x16 S1000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S1000x16_S16x1_S1000x1_1_0_0_1_n_n_wf : DotDims.WF S1000x16 S16x1 S1000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16.size a ≤ S100000x16.size a
  hwx0_2 : ∀ i : grid0.Coords, EltTy.bits .f32 = 32 ∨ (Rect.block (s := S100000x16) S1000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6600x16.size a ≤ S3300000x16.size a
  hwx1_0 : ∀ i : grid1.Coords, EltTy.bits .f32 = 32 ∨ (Rect.block (s := S3300000x16) S6600x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6600x1.size a ≤ S3300000x1.size a
  hwx1_1 : ∀ i : grid1.Coords, EltTy.bits .f32 = 32 ∨ (Rect.block (s := S3300000x1) S6600x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6600x16.size a ≤ S3300000x16.size a
  hwx1_2 : ∀ i : grid1.Coords, EltTy.bits .f32 = 32 ∨ (Rect.block (s := S3300000x16) S6600x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x16.size a ≤ S100000x16.size a
  hwx2_0 : ∀ i : grid2.Coords, EltTy.bits .f32 = 32 ∨ (Rect.block (s := S100000x16) S1000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1.size a ≤ S16x1.size a
  hwx2_1 : ∀ i : grid2.Coords, EltTy.bits .f32 = 32 ∨ (Rect.block (s := S16x1) S16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S100000x1.size a
  hwx2_2 : ∀ i : grid2.Coords, EltTy.bits .f32 = 32 ∨ (Rect.block (s := S100000x1) S1000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6600x1.size a ≤ S3300000x1.size a
  hwx3_0 : ∀ i : grid3.Coords, EltTy.bits .f32 = 32 ∨ (Rect.block (s := S3300000x1) S6600x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6600x1.size a ≤ S3300000x1.size a
  hwx3_1 : ∀ i : grid3.Coords, EltTy.bits .f32 = 32 ∨ (Rect.block (s := S3300000x1) S6600x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6600x1.size a ≤ S3300000x1.size a
  hwx3_2 : ∀ i : grid3.Coords, EltTy.bits .f32 = 32 ∨ (Rect.block (s := S3300000x1) S6600x1.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S1000x16_S16x1_S1000x1_1_0_0_1_n_n : DotDims S1000x16 S16x1 S1000x1 where
  lhsContracting := [1]
  rhsContracting := [0]
  lhsNonContracting := [0]
  rhsNonContracting := [1]
  lhsBatch := []
  rhsBatch := []
  wf := dot_S1000x16_S16x1_S1000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S6600x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S6600x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S6600x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S1000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S6600x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S6600x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S6600x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x1, .f32⟩
  | .hbm, ⟨79, _⟩ => ⟨S3300000x1, .f32⟩
  | .hbm, ⟨80, _⟩ => ⟨S3300000x1, .f32⟩
  | .hbm, ⟨81, _⟩ => ⟨S_, .f32⟩
  | .hbm, ⟨82, _⟩ => ⟨S100000x1, .f32⟩
  | .hbm, ⟨83, _⟩ => ⟨S3300000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run with every buffer named.  @main is twelve segments: stretches of host operations and
  four kernel launches in between.  Each segment takes the TensorCore's unscoped buffers from one valuation to the
  next — a host stretch to the operations' results over the entry valuation, a launch to the entry valuation with the
  launch's arrays replaced by what its write-backs leave — so the last valuation (`Gen.W12`) is a fold of the whole
  program from the launch memory.  The statement here: every weakly fair execution of @main terminates, nothing
  faulting, and in every final state each unscoped buffer of each core holds its value under that last valuation.
  The frame claim keeps of this only the argument buffers; the value claim reads the result buffer out of it.
-/
import proofs.«171452_j25632364822987_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main on the TensorCores terminates, nothing faulting, and every final state
    has each unscoped buffer `b` of each core `c` at `Gen.W12 m ρ c b`: the launch over the twelve segments, the
    last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same, read at one TensorCore buffer that no scope owns. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W12 m ρ c (Proc.devRef .tc b)) :=
  (θ_run defs _ _).mono (fun r h c => h c _ (mem_uc b hb)) (run_all m ρ)

end Cert.KernelIdeal.Run

end
-- ==== Proof.FeatureProjection.lean ====
/-
  The first launch: the node features times the first weight matrix, 100000 × 128 by 128 × 16, in 100 row blocks
  of 1000 rows.  Point t multiplies rows 1000·t … 1000·t + 999 of the features by the whole weight matrix (both rounded
  to bf16 on the way in, which is the identity on extended reals) into a zero accumulator and writes the 1000 × 16
  product back as block t of the output.  The blocks tile the output, so after the launch entry (p, q) of the output
  array is the plain sum over k of feature (p, k) times weight (k, q) of the arrays as the launch finds them.
-/
import proofs.«171452_j25632364822987_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace FeatureProjection

/-- The product's left operand index at output index i and contraction index κ: row i₀ … -/
theorem lhs_row (i : S1000x16.Idx) (κ : dot_S1000x128_S128x16_S1000x16_1_0_0_1_n_n.contr.Idx) :
    (dot_S1000x128_S128x16_S1000x16_1_0_0_1_n_n.lhsIdx i κ 0).val = (i 0).val := by
  unfold DotDims.lhsIdx
  rw [dif_neg (show ¬(0 : Fin S1000x128.rank) ∈ dot_S1000x128_S128x16_S1000x16_1_0_0_1_n_n.lhsBatch by decide),
    dif_pos (show (0 : Fin S1000x128.rank) ∈ dot_S1000x128_S128x16_S1000x16_1_0_0_1_n_n.lhsNonContracting by decide)]
  rfl
/-- … and column the contraction coordinate. -/
theorem lhs_col (i : S1000x16.Idx) (κ : dot_S1000x128_S128x16_S1000x16_1_0_0_1_n_n.contr.Idx) :
    (dot_S1000x128_S128x16_S1000x16_1_0_0_1_n_n.lhsIdx i κ 1).val = (κ ⟨0, by decide⟩).val :=
  dot_S1000x128_S128x16_S1000x16_1_0_0_1_n_n.lhsIdx_val_of_single rfl i κ
/-- The right operand index: row the contraction coordinate … -/
theorem rhs_row (i : S1000x16.Idx) (κ : dot_S1000x128_S128x16_S1000x16_1_0_0_1_n_n.contr.Idx) :
    (dot_S1000x128_S128x16_S1000x16_1_0_0_1_n_n.rhsIdx i κ 0).val = (κ ⟨0, by decide⟩).val :=
  dot_S1000x128_S128x16_S1000x16_1_0_0_1_n_n.rhsIdx_val_of_single rfl i κ
/-- … and column i₁. -/
theorem rhs_col (i : S1000x16.Idx) (κ : dot_S1000x128_S128x16_S1000x16_1_0_0_1_n_n.contr.Idx) :
    (dot_S1000x128_S128x16_S1000x16_1_0_0_1_n_n.rhsIdx i κ 1).val = (i 1).val := by
  unfold DotDims.rhsIdx
  rw [dif_neg (show ¬(1 : Fin S128x16.rank) ∈ dot_S1000x128_S128x16_S1000x16_1_0_0_1_n_n.rhsBatch by decide),
    dif_pos (show (1 : Fin S128x16.rank) ∈ dot_S1000x128_S128x16_S1000x16_1_0_0_1_n_n.rhsNonContracting by decide)]
  rfl

/-- One point's product block at entry (r, q): the sum over k of the row block's (r, k) times the weights' (k, q).
    The accumulator is the zero splat, the roundings to bf16 are the identity on extended reals, and the one-axis
    contraction index is its coordinate k. -/
theorem block_product_apply (x0 : Vec Ideal S1000x128 .f32) (x1 : Vec Ideal S128x16 .f32) (r : Fin 1000) (q : Fin 16) :
    k0_pay1 x0 x1 (ix2 r q) = ∑ k : Fin 128, x0 (ix2 r k) * x1 (ix2 k q) := by
  unfold k0_pay1
  show FloatOps.matmul dot_S1000x128_S128x16_S1000x16_1_0_0_1_n_n none (truncf .bf16 x0 bitsLt_bf16_f32)
    (truncf .bf16 x1 bitsLt_bf16_f32) (constant (F := Ideal) S1000x16 .f32 0x00000000#32) (ix2 r q) = _
  rw [Ideal.matmul_constant_zero_apply,
    ← Equiv.sum_comp (contrEquiv1 dot_S1000x128_S128x16_S1000x16_1_0_0_1_n_n 128 rfl rfl).symm]
  refine Finset.sum_congr rfl fun k _ => ?_
  have hk := contrEquiv1_symm_val dot_S1000x128_S128x16_S1000x16_1_0_0_1_n_n 128 rfl rfl k
  have el : dot_S1000x128_S128x16_S1000x16_1_0_0_1_n_n.lhsIdx (ix2 r q)
      ((contrEquiv1 dot_S1000x128_S128x16_S1000x16_1_0_0_1_n_n 128 rfl rfl).symm k) = ix2 r k :=
    funext fun a => Fin.ext (by
      match a with
      | ⟨0, _⟩ => exact lhs_row _ _
      | ⟨1, _⟩ => exact (lhs_col _ _).trans hk)
  have er : dot_S1000x128_S128x16_S1000x16_1_0_0_1_n_n.rhsIdx (ix2 r q)
      ((contrEquiv1 dot_S1000x128_S128x16_S1000x16_1_0_0_1_n_n 128 rfl rfl).symm k) = ix2 k q :=
    funext fun a => Fin.ext (by
      match a with
      | ⟨0, _⟩ => exact (rhs_row _ _).trans hk
      | ⟨1, _⟩ => exact rhs_col _ _)
  rw [el, er]
  rfl

/-- The zero offsets of an access to a whole block, as the constant function. -/
theorem zero_offsets : (![0, 0] : Fin 2 → Nat) = fun _ => 0 := funext fun a => by fin_cases a <;> rfl

/-- The whole-array product: entry (i₀, i₁) is the sum over k of features (i₀, k) times weights (k, i₁). -/
abbrev product (a0 : S100000x128.Idx → EReal) (a2 : S128x16.Idx → EReal) : S100000x16.Idx → EReal :=
  fun i => ∑ k : Fin 128, a0 (ix2 (i 0) k) * a2 (ix2 k (i 1))

/-- One point's product block is a block of the whole-array product: if the row block holds rows b·1000 … of the
    features, the second block is the whole weight matrix, and i is entry j of row block b of the output, then
    entry j of the point's product is entry i of the whole-array product. -/
theorem block_entry (a0 : S100000x128.Idx → EReal) (a2 : S128x16.Idx → EReal)
    (x0 : Vec Ideal S1000x128 .f32) (x1 : Vec Ideal S128x16 .f32) (j : S1000x16.Idx) (i : S100000x16.Idx) (b : Nat)
    (h0 : ∀ (r : Fin 1000) (k : Fin 128) (p : Fin 100000), p.val = b * 1000 + r.val → x0 (ix2 r k) = a0 (ix2 p k))
    (h1 : ∀ (k : Fin 128) (q : Fin 16), x1 (ix2 k q) = a2 (ix2 k q))
    (hi0 : (i 0).val = b * 1000 + (j 0).val) (hi1 : (i 1).val = (j 1).val) :
    k0_pay1 x0 x1 j = product a0 a2 i := by
  obtain ⟨r, q, rfl⟩ : ∃ (r : Fin 1000) (q : Fin 16), j = ix2 r q := ⟨j 0, j 1, eq_ix2 j⟩
  obtain ⟨p, q', rfl⟩ : ∃ (p : Fin 100000) (q' : Fin 16), i = ix2 p q' := ⟨i 0, i 1, eq_ix2 i⟩
  obtain rfl : q' = q := Fin.ext hi1
  rw [block_product_apply]
  show ∑ k : Fin 128, x0 (ix2 r k) * x1 (ix2 k q') = ∑ k : Fin 128, a0 (ix2 p k) * a2 (ix2 k q')
  exact Finset.sum_congr rfl fun k _ => by rw [h0 r k p hi0, h1 k q']

/-- The launch's index maps, decided over the grid: at point t the feature window's and the output window's block index is
    (t, 0), the weight window's (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole-array product of the two input arrays as the launch finds them: a
    block's coordinate is its block index times the block's extent plus the coordinate inside the block. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S1000x128) zero_offsets, View.ld_unit_zero (S := S128x16) zero_offsets]
  obtain ⟨e0, e1, e2, e3, e4, e5⟩ := block_indices t
  funext j
  show k0_pay1 (iblk0 V c 0 t) (iblk0 V c 1 t) j
    = product (V c main_arg0) (V c main_arg2) (((cfg0.win 2).blk t).view.emb j)
  refine block_entry _ _ _ _ j _ t.val (fun r k p hp => ?_) (fun k q => ?_) ?_ ?_
  · show V c main_arg0 (((cfg0.win 0).blk t).view.emb (ix2 r k)) = V c main_arg0 (ix2 p k)
    refine congrArg _ (funext fun a => Fin.ext ?_)
    match a with
    | ⟨0, _⟩ => show win0_0.index t (0 : Fin 2) * 1000 + 1 * r.val = p.val; omega
    | ⟨1, _⟩ => show win0_0.index t (1 : Fin 2) * 128 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 16 + 1 * q.val = q.val; omega
  · show win0_2.index t (0 : Fin 2) * 1000 + 1 * (j 0).val = t.val * 1000 + (j 0).val; omega
  · show win0_2.index t (1 : Fin 2) * 16 + 1 * (j 1).val = (j 1).val; omega

/-- An index of the output array is in point t's block iff each coordinate is in the block's range on its axis. -/
theorem mem_block (t : Fin cfg0.N) (i : S100000x16.Idx) :
    i ∈ ((cfg0.win 2).blk t).view.set ↔ ∀ a : Fin 2, win0_2.index t a * S1000x16.size a ≤ (i a).val
      ∧ (i a).val < win0_2.index t a * S1000x16.size a + S1000x16.size a := by
  show i ∈ ((View.whole main_v31).slice (win0_2.rect t)).set ↔ _
  rw [View.set_slice_whole, Rect.mem_set_unit]
  exact Iff.rfl

/-- THE BLOCKS TILE THE OUTPUT: row r is in the block of point r / 1000, and every point writes back. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 100 := N_0
  obtain ⟨t, ht⟩ : ∃ t : Fin cfg0.N, t.val = (i 0).val / 1000 := ⟨⟨(i 0).val / 1000, by rw [hN]; omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 16 ≤ (i 1).val ∧ (i 1).val < win0_2.index t (1 : Fin 2) * 16 + 16
    omega

/-- THE OUTPUT ARRAY after the launch is the whole-array product of the two input arrays as the launch finds them. -/
theorem final (c : Dev nD) :
    (dat0 V c).arrAt 2 cfg0.N = product (V c main_arg0) (V c main_arg2) :=
  (dat0 V c).arrAt_eq_of_cover 2 _ (fun t _ => flushed_eq V c t) covered

end FeatureProjection

/-- Entry `(p, q)` of the first launch's output array is `∑ k, a0 (p, k) * a2 (k, q)` of its two input arrays as the
    launch finds them (`V`). -/
theorem region0_value (c : Dev nD) (a0 : S100000x128.Idx → EReal) (a2 : S128x16.Idx → EReal) (out : S100000x16.Idx → EReal)
    (h0 : V c main_arg0 = a0) (h2 : V c main_arg2 = a2) (hout : (dat0 (F := Ideal) V c).arrAt 2 cfg0.N = out)
    (p : Fin 100000) (q : Fin 16) :
    out (ix2 p q) = ∑ k : Fin 128, a0 (ix2 p k) * a2 (ix2 k q) := by
  subst h0 h2 hout
  exact congrFun (FeatureProjection.final V c) (ix2 p q)

end Cert.KernelIdeal.RegionValue

end
-- ==== Proof.HiddenProjection.lean ====
/-
  The third launch: the hidden features times the second weight matrix, 100000 × 16 by 16 × 1, in 100 row blocks of
  1000 rows.  Point t multiplies rows 1000·t … 1000·t + 999 of the hidden features by the whole weight column (both
  rounded to bf16 on the way in, the identity on extended reals) into a zero accumulator and writes the 1000 × 1
  product back as block t of the output.  The blocks tile the output, so after the launch entry (p, q) of the output
  array is the plain sum over k of hidden (p, k) times weight (k, q) of the arrays as the launch finds them.
-/
import proofs.«171452_j25632364822987_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace HiddenProjection

/-- The product's left operand index at output index i and contraction index κ: row i₀ … -/
theorem lhs_row (i : S1000x1.Idx) (κ : dot_S1000x16_S16x1_S1000x1_1_0_0_1_n_n.contr.Idx) :
    (dot_S1000x16_S16x1_S1000x1_1_0_0_1_n_n.lhsIdx i κ 0).val = (i 0).val := by
  unfold DotDims.lhsIdx
  rw [dif_neg (show ¬(0 : Fin S1000x16.rank) ∈ dot_S1000x16_S16x1_S1000x1_1_0_0_1_n_n.lhsBatch by decide),
    dif_pos (show (0 : Fin S1000x16.rank) ∈ dot_S1000x16_S16x1_S1000x1_1_0_0_1_n_n.lhsNonContracting by decide)]
  rfl
/-- … and column the contraction coordinate. -/
theorem lhs_col (i : S1000x1.Idx) (κ : dot_S1000x16_S16x1_S1000x1_1_0_0_1_n_n.contr.Idx) :
    (dot_S1000x16_S16x1_S1000x1_1_0_0_1_n_n.lhsIdx i κ 1).val = (κ ⟨0, by decide⟩).val :=
  dot_S1000x16_S16x1_S1000x1_1_0_0_1_n_n.lhsIdx_val_of_single rfl i κ
/-- The right operand index: row the contraction coordinate … -/
theorem rhs_row (i : S1000x1.Idx) (κ : dot_S1000x16_S16x1_S1000x1_1_0_0_1_n_n.contr.Idx) :
    (dot_S1000x16_S16x1_S1000x1_1_0_0_1_n_n.rhsIdx i κ 0).val = (κ ⟨0, by decide⟩).val :=
  dot_S1000x16_S16x1_S1000x1_1_0_0_1_n_n.rhsIdx_val_of_single rfl i κ
/-- … and column i₁. -/
theorem rhs_col (i : S1000x1.Idx) (κ : dot_S1000x16_S16x1_S1000x1_1_0_0_1_n_n.contr.Idx) :
    (dot_S1000x16_S16x1_S1000x1_1_0_0_1_n_n.rhsIdx i κ 1).val = (i 1).val := by
  unfold DotDims.rhsIdx
  rw [dif_neg (show ¬(1 : Fin S16x1.rank) ∈ dot_S1000x16_S16x1_S1000x1_1_0_0_1_n_n.rhsBatch by decide),
    dif_pos (show (1 : Fin S16x1.rank) ∈ dot_S1000x16_S16x1_S1000x1_1_0_0_1_n_n.rhsNonContracting by decide)]
  rfl

/-- One point's product block at entry (r, q): the sum over k of the row block's (r, k) times the weights' (k, q).
    The cast of the row block to its own shape is the identity, the accumulator is the zero splat, the roundings to
    bf16 are the identity on extended reals, and the one-axis contraction index is its coordinate k. -/
theorem block_product_apply (x0 : Vec Ideal S1000x16 .f32) (x1 : Vec Ideal S16x1 .f32) (r : Fin 1000) (q : Fin 1) :
    k2_pay1 x0 x1 (ix2 r q) = ∑ k : Fin 16, x0 (ix2 r k) * x1 (ix2 k q) := by
  unfold k2_pay1
  show FloatOps.matmul dot_S1000x16_S16x1_S1000x1_1_0_0_1_n_n none
    (truncf .bf16 (shapeCast S1000x16 x0 shapeCasts_S1000x16_S1000x16) bitsLt_bf16_f32)
    (truncf .bf16 x1 bitsLt_bf16_f32) (constant (F := Ideal) S1000x1 .f32 0x00000000#32) (ix2 r q) = _
  rw [shapeCast_self, Ideal.matmul_constant_zero_apply,
    ← Equiv.sum_comp (contrEquiv1 dot_S1000x16_S16x1_S1000x1_1_0_0_1_n_n 16 rfl rfl).symm]
  refine Finset.sum_congr rfl fun k _ => ?_
  have hk := contrEquiv1_symm_val dot_S1000x16_S16x1_S1000x1_1_0_0_1_n_n 16 rfl rfl k
  have el : dot_S1000x16_S16x1_S1000x1_1_0_0_1_n_n.lhsIdx (ix2 r q)
      ((contrEquiv1 dot_S1000x16_S16x1_S1000x1_1_0_0_1_n_n 16 rfl rfl).symm k) = ix2 r k :=
    funext fun a => Fin.ext (by
      match a with
      | ⟨0, _⟩ => exact lhs_row _ _
      | ⟨1, _⟩ => exact (lhs_col _ _).trans hk)
  have er : dot_S1000x16_S16x1_S1000x1_1_0_0_1_n_n.rhsIdx (ix2 r q)
      ((contrEquiv1 dot_S1000x16_S16x1_S1000x1_1_0_0_1_n_n 16 rfl rfl).symm k) = ix2 k q :=
    funext fun a => Fin.ext (by
      match a with
      | ⟨0, _⟩ => exact (rhs_row _ _).trans hk
      | ⟨1, _⟩ => exact rhs_col _ _)
  rw [el, er]
  rfl

/-- The zero offsets of an access to a whole block, as the constant function. -/
theorem zero_offsets : (![0, 0] : Fin 2 → Nat) = fun _ => 0 := funext fun a => by fin_cases a <;> rfl

/-- The whole-array product: entry (i₀, i₁) is the sum over k of hidden (i₀, k) times weights (k, i₁). -/
abbrev product (a0 : S100000x16.Idx → EReal) (a1 : S16x1.Idx → EReal) : S100000x1.Idx → EReal :=
  fun i => ∑ k : Fin 16, a0 (ix2 (i 0) k) * a1 (ix2 k (i 1))

/-- One point's product block is a block of the whole-array product: if the row block holds rows b·1000 … of the
    hidden features, the second block is the whole weight column, and i is entry j of row block b of the output, then
    entry j of the point's product is entry i of the whole-array product. -/
theorem block_entry (a0 : S100000x16.Idx → EReal) (a1 : S16x1.Idx → EReal)
    (x0 : Vec Ideal S1000x16 .f32) (x1 : Vec Ideal S16x1 .f32) (j : S1000x1.Idx) (i : S100000x1.Idx) (b : Nat)
    (h0 : ∀ (r : Fin 1000) (k : Fin 16) (p : Fin 100000), p.val = b * 1000 + r.val → x0 (ix2 r k) = a0 (ix2 p k))
    (h1 : ∀ (k : Fin 16) (q : Fin 1), x1 (ix2 k q) = a1 (ix2 k q))
    (hi0 : (i 0).val = b * 1000 + (j 0).val) (hi1 : (i 1).val = (j 1).val) :
    k2_pay1 x0 x1 j = product a0 a1 i := by
  obtain ⟨r, q, rfl⟩ : ∃ (r : Fin 1000) (q : Fin 1), j = ix2 r q := ⟨j 0, j 1, eq_ix2 j⟩
  obtain ⟨p, q', rfl⟩ : ∃ (p : Fin 100000) (q' : Fin 1), i = ix2 p q' := ⟨i 0, i 1, eq_ix2 i⟩
  obtain rfl : q' = q := Fin.ext hi1
  rw [block_product_apply]
  show ∑ k : Fin 16, x0 (ix2 r k) * x1 (ix2 k q') = ∑ k : Fin 16, a0 (ix2 p k) * a1 (ix2 k q')
  exact Finset.sum_congr rfl fun k _ => by rw [h0 r k p hi0, h1 k q']

/-- The launch's index maps, decided over the grid: at point t the hidden-feature window's and the output window's block
    index is (t, 0), the weight window's (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the whole-array product of the two input arrays as the launch finds them: a
    block's coordinate is its block index times the block's extent plus the coordinate inside the block. -/
theorem flushed_eq (c : Dev nD) (t : Fin cfg2.N) :
    (dat2 V c).flushed 2 t = ((cfg2.win 2).blk t).view.read (Elt Ideal) (product (V c main_v46) (V c main_arg4)) := by
  show (cfg2.win 2).cut (grid2.coords t) ((dat2 V c).after 2 t) = _
  rw [after2_2]
  unfold out2_2
  rw [View.canon_unit_zero zero_offsets]
  simp only [View.ld_unit_zero (S := S1000x16) zero_offsets, View.ld_unit_zero (S := S16x1) zero_offsets]
  obtain ⟨e0, e1, e2, e3, e4, e5⟩ := block_indices t
  funext j
  show k2_pay1 (iblk2 V c 0 t) (iblk2 V c 1 t) j
    = product (V c main_v46) (V c main_arg4) (((cfg2.win 2).blk t).view.emb j)
  refine block_entry _ _ _ _ j _ t.val (fun r k p hp => ?_) (fun k q => ?_) ?_ ?_
  · show V c main_v46 (((cfg2.win 0).blk t).view.emb (ix2 r k)) = V c main_v46 (ix2 p k)
    refine congrArg _ (funext fun a => Fin.ext ?_)
    match a with
    | ⟨0, _⟩ => show win2_0.index t (0 : Fin 2) * 1000 + 1 * r.val = p.val; omega
    | ⟨1, _⟩ => show win2_0.index t (1 : Fin 2) * 16 + 1 * k.val = k.val; omega
  · show V c main_arg4 (((cfg2.win 1).blk t).view.emb (ix2 k q)) = V c main_arg4 (ix2 k q)
    refine congrArg _ (funext fun a => Fin.ext ?_)
    match a with
    | ⟨0, _⟩ => show win2_1.index t (0 : Fin 2) * 16 + 1 * k.val = k.val; omega
    | ⟨1, _⟩ => show win2_1.index t (1 : Fin 2) * 1 + 1 * q.val = q.val; omega
  · show win2_2.index t (0 : Fin 2) * 1000 + 1 * (j 0).val = t.val * 1000 + (j 0).val; omega
  · show win2_2.index t (1 : Fin 2) * 1 + 1 * (j 1).val = (j 1).val; omega

/-- An index of the output array is in point t's block iff each coordinate is in the block's range on its axis. -/
theorem mem_block (t : Fin cfg2.N) (i : S100000x1.Idx) :
    i ∈ ((cfg2.win 2).blk t).view.set ↔ ∀ a : Fin 2, win2_2.index t a * S1000x1.size a ≤ (i a).val
      ∧ (i a).val < win2_2.index t a * S1000x1.size a + S1000x1.size a := by
  show i ∈ ((View.whole main_v47).slice (win2_2.rect t)).set ↔ _
  rw [View.set_slice_whole, Rect.mem_set_unit]
  exact Iff.rfl

/-- THE BLOCKS TILE THE OUTPUT: row r is in the block of point r / 1000, and every point writes back. -/
theorem covered (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 100 := N_2
  obtain ⟨t, ht⟩ : ∃ t : Fin cfg2.N, t.val = (i 0).val / 1000 := ⟨⟨(i 0).val / 1000, by rw [hN]; omega⟩, rfl⟩
  obtain ⟨-, -, -, -, e4, e5⟩ := block_indices t
  refine ⟨t, flush2_2 t, ?_⟩
  rw [mem_block]
  intro a
  match a with
  | ⟨0, _⟩ =>
    show win2_2.index t (0 : Fin 2) * 1000 ≤ (i 0).val ∧ (i 0).val < win2_2.index t (0 : Fin 2) * 1000 + 1000
    omega
  | ⟨1, _⟩ =>
    show win2_2.index t (1 : Fin 2) * 1 ≤ (i 1).val ∧ (i 1).val < win2_2.index t (1 : Fin 2) * 1 + 1
    omega

/-- THE OUTPUT ARRAY after the launch is the whole-array product of the two input arrays as the launch finds them. -/
theorem final (c : Dev nD) :
    (dat2 V c).arrAt 2 cfg2.N = product (V c main_v46) (V c main_arg4) :=
  (dat2 V c).arrAt_eq_of_cover 2 _ (fun t _ => flushed_eq V c t) covered

end HiddenProjection

/-- Entry `(p, q)` of the third launch's output array is `∑ k, a0 (p, k) * a1 (k, q)` of its two input arrays as the
    launch finds them (`V`). -/
theorem region2_value (c : Dev nD) (a0 : S100000x16.Idx → EReal) (a1 : S16x1.Idx → EReal) (out : S100000x1.Idx → EReal)
    (h0 : V c main_v46 = a0) (h1 : V c main_arg4 = a1) (hout : (dat2 (F := Ideal) V c).arrAt 2 cfg2.N = out)
    (p : Fin 100000) (q : Fin 1) :
    out (ix2 p q) = ∑ k : Fin 16, a0 (ix2 p k) * a1 (ix2 k q) := by
  subst h0 h1 hout
  exact congrFun (HiddenProjection.final V c) (ix2 p q)

end Cert.KernelIdeal.RegionValue

end
-- ==== Proof.EdgeScaleWide.lean ====
/-
  The second launch: every edge's gathered 16 features scaled by the edge's weight, 3300000 × 16 by 3300000 × 1, in
  500 blocks of 6600 edges.  Point t takes rows 6600·t … 6600·t + 6599 of both arrays, spreads the weight column
  along the 16 lanes and multiplies pointwise, and writes the 6600 × 16 product back as block t of the output.  The
  blocks tile the output, so after the launch entry (p, q) of the output array is feature (p, q) times weight (p, 0)
  of the arrays as the launch finds them.
-/
import proofs.«171452_j25632364822987_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The offsets of an access to a whole staging buffer are zero on both axes. -/
theorem wide_zero_offsets : (![0, 0] : Fin 2 → Nat) = fun _ => 0 := funext fun a => by fin_cases a <;> rfl

/-- The weight of the row an entry of the feature array sits in: the same row, column 0. -/
abbrev weightIdx (i : S3300000x16.Idx) : S3300000x1.Idx := ix2 (⟨(i 0).val, (i 0).isLt⟩ : Fin 3300000) (0 : Fin 1)

/-- The whole-array function of the launch: entry `(p, q)` of the feature array times the weight of row `p`. -/
abbrev wideProduct (a0 : S3300000x16.Idx → EReal) (a1 : S3300000x1.Idx → EReal) : S3300000x16.Idx → EReal :=
  fun i => a0 i * a1 (weightIdx i)

/-- A feature read where the output's entry sits, times a weight read in that entry's row at column 0, is the
    whole-array function there. -/
theorem wide_point (a0 : S3300000x16.Idx → EReal) (a1 : S3300000x1.Idx → EReal) (i0 i : S3300000x16.Idx)
    (i1 : S3300000x1.Idx) (h0 : i0 = i) (h1 : i1 = weightIdx i) :
    a0 i0 * a1 i1 = wideProduct a0 a1 i := by
  subst h0 h1; rfl

/-- A 6600 × 1 column spread along 16 lanes, read at `(r, q)`, is the column's entry `(r, 0)`: axis 0 is not a unit
    axis of the column, so it keeps its coordinate, and axis 1 is, so it reads 0. -/
theorem lanes_apply (x : FVec Ideal S6600x1 .f32) (r : Fin 6600) (q : Fin 16) :
    broadcastTo S6600x16 x broadcasts_S6600x1_S6600x16 (ix2 r q) = x (ix2 r (0 : Fin 1)) := by
  refine broadcastTo_apply x broadcasts_S6600x1_S6600x16 (ix2 r q) (ix2 r (0 : Fin 1)) fun a => ?_
  match a with
  | ⟨0, _⟩ => show r.val = if (6600 : Nat) = 1 then 0 else r.val; exact (if_neg (by decide)).symm
  | ⟨1, _⟩ => show (0 : Nat) = if (1 : Nat) = 1 then 0 else q.val; exact (if_pos rfl).symm

/-- The body's payload at `(r, q)`: the feature block's entry `(r, q)` times the weight block's entry `(r, 0)`
    (the two shape casts are identities, the product is pointwise, the weight is spread along the lanes). -/
theorem wide_payload (x0 : Vec Ideal S6600x16 .f32) (x1 : Vec Ideal S6600x1 .f32) (r : Fin 6600) (q : Fin 16) :
    k1_pay1 x0 x1 (ix2 r q) = x0 (ix2 r q) * x1 (ix2 r (0 : Fin 1)) := by
  unfold k1_pay1
  simp only [shapeCast_self]
  rw [mulf_apply, lanes_apply]

/-- The three index maps, decided over the 500 points: each sends point `t` to block `(t, 0)`. -/
theorem wide_block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the two arrays as the launch finds them:
    an element of any of the three blocks sits at block index × block size + its coordinate inside the block, the
    three block indices agree, and the weight block's row `r` is the weight array's row 6600·t + r. -/
theorem wide_flushed (c : Dev nD) (t : Fin cfg1.N) :
    (dat1 (F := Ideal) V c).flushed 2 t
      = ((cfg1.win 2).blk t).view.read (Elt Ideal) (wideProduct (V c main_v38) (V c main_v30)) := by
  show (cfg1.win 2).cut (grid1.coords t) ((dat1 V c).after 2 t) = _
  rw [after1_2]
  unfold out1_2
  rw [View.canon_unit_zero wide_zero_offsets]
  simp only [View.ld_unit_zero (S := S6600x16) wide_zero_offsets, View.ld_unit_zero (S := S6600x1) wide_zero_offsets]
  obtain ⟨e0, e1, e2, e3, e4, e5⟩ := wide_block_index t
  funext j
  obtain ⟨r, q, rfl⟩ : ∃ (r : Fin 6600) (q : Fin 16), j = ix2 r q := ⟨j 0, j 1, eq_ix2 j⟩
  refine (wide_payload (iblk1 V c 0 t) (iblk1 V c 1 t) r q).trans ?_
  have h0 : ((cfg1.win 0).blk t).view.emb (ix2 r q) = ((cfg1.win 2).blk t).view.emb (ix2 r q) := by
    funext a; apply Fin.ext
    match a with
    | ⟨0, _⟩ => show win1_0.index t (0 : Fin 2) * 6600 + 1 * r.val = win1_2.index t (0 : Fin 2) * 6600 + 1 * r.val; omega
    | ⟨1, _⟩ => show win1_0.index t (1 : Fin 2) * 16 + 1 * q.val = win1_2.index t (1 : Fin 2) * 16 + 1 * q.val; omega
  have h1 : ((cfg1.win 1).blk t).view.emb (ix2 r (0 : Fin 1)) = weightIdx (((cfg1.win 2).blk t).view.emb (ix2 r q)) := by
    funext a; apply Fin.ext
    match a with
    | ⟨0, _⟩ => show win1_1.index t (0 : Fin 2) * 6600 + 1 * r.val = win1_2.index t (0 : Fin 2) * 6600 + 1 * r.val; omega
    | ⟨1, _⟩ => show win1_1.index t (1 : Fin 2) * 1 + 1 * 0 = 0; omega
  exact wide_point (V c main_v38) (V c main_v30) _ _ _ h0 h1

/-- An index of the output array is in point `t`'s block iff each coordinate is in the block's range on its axis. -/
theorem wide_mem_block (t : Fin cfg1.N) (i : S3300000x16.Idx) :
    i ∈ ((cfg1.win 2).blk t).view.set
      ↔ ∀ a : Fin 2, win1_2.index t a * S6600x16.size a ≤ (i a).val
          ∧ (i a).val < win1_2.index t a * S6600x16.size a + S6600x16.size a := by
  show i ∈ ((View.whole main_v39).slice (win1_2.rect t)).set ↔ _
  rw [View.set_slice_whole, Rect.mem_set_unit]
  exact Iff.rfl

/-- The blocks tile the output: row `r` is in the block of point `r / 6600`, and every point writes back. -/
theorem wide_cover (i : S3300000x16.Idx) :
    ∃ t : Fin cfg1.N, (cfg1.win 2).flush t = true ∧ i ∈ ((cfg1.win 2).blk t).view.set := by
  have hi0 : (i 0).val < 3300000 := (i 0).isLt
  have hi1 : (i 1).val < 16 := (i 1).isLt
  have hN : cfg1.N = 500 := N_1
  let t : Fin cfg1.N := ⟨(i 0).val / 6600, by rw [hN]; omega⟩
  obtain ⟨-, -, -, -, e4, e5⟩ := wide_block_index t
  have e4' : win1_2.index t (0 : Fin 2) = (i 0).val / 6600 := e4
  refine ⟨t, flush1_2 t, ?_⟩
  rw [wide_mem_block]
  intro a
  match a with
  | ⟨0, _⟩ => show win1_2.index t (0 : Fin 2) * 6600 ≤ (i 0).val ∧ (i 0).val < win1_2.index t (0 : Fin 2) * 6600 + 6600; omega
  | ⟨1, _⟩ => show win1_2.index t (1 : Fin 2) * 16 ≤ (i 1).val ∧ (i 1).val < win1_2.index t (1 : Fin 2) * 16 + 16; omega

/-- The output array after the launch is the whole-array function. -/
theorem wide_final (c : Dev nD) :
    (dat1 (F := Ideal) V c).arrAt 2 cfg1.N = wideProduct (V c main_v38) (V c main_v30) :=
  (dat1 (F := Ideal) V c).arrAt_eq_of_cover 2 (wideProduct (V c main_v38) (V c main_v30))
    (fun t _ => wide_flushed V c t) wide_cover

/-- Entry `(p, q)` of the second launch's output array is `h (p, q) * n (p, 0)` of its two input arrays as the launch
    finds them (`V`). -/
theorem region1_value (c : Dev nD) (h : S3300000x16.Idx → EReal) (n : S3300000x1.Idx → EReal) (out : S3300000x16.Idx → EReal)
    (hh : V c main_v38 = h) (hn : V c main_v30 = n) (hout : (dat1 (F := Ideal) V c).arrAt 2 cfg1.N = out)
    (p : Fin 3300000) (q : Fin 16) :
    out (ix2 p q) = h (ix2 p q) * n (ix2 p (0 : Fin 1)) := by
  subst hh hn hout
  rw [wide_final V c]

end Cert.KernelIdeal.RegionValue

end
-- ==== Proof.EdgeScaleNarrow.lean ====
/-
  The fourth launch: every edge's gathered single feature scaled by the edge's weight, 3300000 × 1 by 3300000 × 1, in
  500 blocks of 6600 edges.  Point t takes rows 6600·t … 6600·t + 6599 of both arrays, multiplies pointwise, and writes
  the 6600 × 1 product back as block t of the output.  The blocks tile the output, so after the launch entry (p, q) of
  the output array is feature (p, q) times weight (p, q) of the arrays as the launch finds them.
-/
import proofs.«171452_j25632364822987_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The offsets of an access to a whole staging buffer are zero on both axes. -/
theorem narrow_zero_offsets : (![0, 0] : Fin 2 → Nat) = fun _ => 0 := funext fun a => by fin_cases a <;> rfl

/-- The whole-array function of the launch: entry `i` of the feature column times entry `i` of the weight column. -/
abbrev narrowProduct (a0 a1 : S3300000x1.Idx → EReal) : S3300000x1.Idx → EReal := fun i => a0 i * a1 i

/-- The product of two entries read at the same place is the whole-array product there. -/
theorem narrow_point (a0 a1 : S3300000x1.Idx → EReal) (i0 i1 i : S3300000x1.Idx) (h0 : i0 = i) (h1 : i1 = i) :
    a0 i0 * a1 i1 = narrowProduct a0 a1 i := by
  subst h0 h1; rfl

/-- The body's payload is the pointwise product of its two loaded blocks (the two shape casts are identities). -/
theorem narrow_payload (x0 x1 : Vec Ideal S6600x1 .f32) : k3_pay1 x0 x1 = mulf x0 x1 := by
  unfold k3_pay1
  simp only [shapeCast_self]

/-- The three index maps, decided over the 500 points: each sends point `t` to block `(t, 0)`. -/
theorem narrow_block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array product of the two arrays as the launch finds them:
    an element of any of the three blocks sits at block index × block size + its coordinate inside the block, and the
    three block indices agree. -/
theorem narrow_flushed (c : Dev nD) (t : Fin cfg3.N) :
    (dat3 (F := Ideal) V c).flushed 2 t
      = ((cfg3.win 2).blk t).view.read (Elt Ideal) (narrowProduct (V c main_v54) (V c main_v30)) := by
  show (cfg3.win 2).cut (grid3.coords t) ((dat3 V c).after 2 t) = _
  rw [after3_2]
  unfold out3_2
  rw [View.canon_unit_zero narrow_zero_offsets]
  simp only [View.ld_unit_zero (S := S6600x1) narrow_zero_offsets]
  rw [narrow_payload]
  obtain ⟨e0, e1, e2, e3, e4, e5⟩ := narrow_block_index t
  funext j
  have h0 : ((cfg3.win 0).blk t).view.emb j = ((cfg3.win 2).blk t).view.emb j := by
    funext a; apply Fin.ext
    match a with
    | ⟨0, _⟩ => show win3_0.index t (0 : Fin 2) * 6600 + 1 * (j 0).val = win3_2.index t (0 : Fin 2) * 6600 + 1 * (j 0).val; omega
    | ⟨1, _⟩ => show win3_0.index t (1 : Fin 2) * 1 + 1 * (j 1).val = win3_2.index t (1 : Fin 2) * 1 + 1 * (j 1).val; omega
  have h1 : ((cfg3.win 1).blk t).view.emb j = ((cfg3.win 2).blk t).view.emb j := by
    funext a; apply Fin.ext
    match a with
    | ⟨0, _⟩ => show win3_1.index t (0 : Fin 2) * 6600 + 1 * (j 0).val = win3_2.index t (0 : Fin 2) * 6600 + 1 * (j 0).val; omega
    | ⟨1, _⟩ => show win3_1.index t (1 : Fin 2) * 1 + 1 * (j 1).val = win3_2.index t (1 : Fin 2) * 1 + 1 * (j 1).val; omega
  exact narrow_point (V c main_v54) (V c main_v30) _ _ _ h0 h1

/-- An index of the output array is in point `t`'s block iff each coordinate is in the block's range on its axis. -/
theorem narrow_mem_block (t : Fin cfg3.N) (i : S3300000x1.Idx) :
    i ∈ ((cfg3.win 2).blk t).view.set
      ↔ ∀ a : Fin 2, win3_2.index t a * S6600x1.size a ≤ (i a).val
          ∧ (i a).val < win3_2.index t a * S6600x1.size a + S6600x1.size a := by
  show i ∈ ((View.whole main_v55).slice (win3_2.rect t)).set ↔ _
  rw [View.set_slice_whole, Rect.mem_set_unit]
  exact Iff.rfl

/-- The blocks tile the output: row `r` is in the block of point `r / 6600`, and every point writes back. -/
theorem narrow_cover (i : S3300000x1.Idx) :
    ∃ t : Fin cfg3.N, (cfg3.win 2).flush t = true ∧ i ∈ ((cfg3.win 2).blk t).view.set := by
  have hi0 : (i 0).val < 3300000 := (i 0).isLt
  have hi1 : (i 1).val < 1 := (i 1).isLt
  have hN : cfg3.N = 500 := N_3
  let t : Fin cfg3.N := ⟨(i 0).val / 6600, by rw [hN]; omega⟩
  obtain ⟨-, -, -, -, e4, e5⟩ := narrow_block_index t
  have e4' : win3_2.index t (0 : Fin 2) = (i 0).val / 6600 := e4
  refine ⟨t, flush3_2 t, ?_⟩
  rw [narrow_mem_block]
  intro a
  match a with
  | ⟨0, _⟩ => show win3_2.index t (0 : Fin 2) * 6600 ≤ (i 0).val ∧ (i 0).val < win3_2.index t (0 : Fin 2) * 6600 + 6600; omega
  | ⟨1, _⟩ => show win3_2.index t (1 : Fin 2) * 1 ≤ (i 1).val ∧ (i 1).val < win3_2.index t (1 : Fin 2) * 1 + 1; omega

/-- The output array after the launch is the whole-array product. -/
theorem narrow_final (c : Dev nD) :
    (dat3 (F := Ideal) V c).arrAt 2 cfg3.N = narrowProduct (V c main_v54) (V c main_v30) :=
  (dat3 (F := Ideal) V c).arrAt_eq_of_cover 2 (narrowProduct (V c main_v54) (V c main_v30))
    (fun t _ => narrow_flushed V c t) narrow_cover

/-- Entry `(p, q)` of the fourth launch's output array is `h (p, q) * n (p, q)` of its two input arrays as the launch
    finds them (`V`). -/
theorem region3_value (c : Dev nD) (h : S3300000x1.Idx → EReal) (n : S3300000x1.Idx → EReal) (out : S3300000x1.Idx → EReal)
    (hh : V c main_v54 = h) (hn : V c main_v30 = n) (hout : (dat3 (F := Ideal) V c).arrAt 2 cfg3.N = out)
    (p : Fin 3300000) (q : Fin 1) :
    out (ix2 p q) = h (ix2 p q) * n (ix2 p q) := by
  subst hh hn hout
  rw [narrow_final V c]

end Cert.KernelIdeal.RegionValue

end
-- ==== Proof.HostReadings.lean ====
/-
  The reference's three array operations that the kernel replaces by launches, read at an index on extended reals.
  A matrix product of a [M, K] by a [K, N] array is, at entry (p, q), the sum over k of x (p, k) · w (k, q) (the host's
  `dot_general` with one contracted axis and no batch axis: the zero it starts from is the additive unit).  A column
  [E, 1] spread along 16 lanes to [E, 16] is, at entry (p, q), the column's entry (p, 0).  These are the forms in which
  the kernel's launches state what they leave in their output arrays.
-/
import proofs.«171452_j25632364822987_2_alg».proof.Proof.Gen.ReferenceIdeal
import Idealize.ShloMosaic.Lib.ValueIdx
import Idealize.ShloMosaic.Lib.Pipeline.Value
import Idealize.ShloMosaic.PureOps.Ideal
import Idealize.ShloMosaic.PureOps.Ideal.Laws

noncomputable section

namespace Cert.ReferenceIdeal.Reading

open Idealize.ShloMosaic Idealize.ShloMosaic.ValueIdx Cert.ReferenceIdeal Cert.ReferenceIdeal.Gen

/-! ### `dot_S100000x128_S128x16_S100000x16_1_0_0_1_n_n`: [100000, 128] × [128, 16], one contracted axis -/

theorem featDot_lhs0 (i : S100000x16.Idx) (q : dot_S100000x128_S128x16_S100000x16_1_0_0_1_n_n.contr.Idx) :
    (dot_S100000x128_S128x16_S100000x16_1_0_0_1_n_n.lhsIdx i q 0).val = (i 0).val := by
  unfold DotDims.lhsIdx
  rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
  rfl
theorem featDot_lhs1 (i : S100000x16.Idx) (q : dot_S100000x128_S128x16_S100000x16_1_0_0_1_n_n.contr.Idx) :
    (dot_S100000x128_S128x16_S100000x16_1_0_0_1_n_n.lhsIdx i q 1).val = (q ⟨0, by decide⟩).val :=
  dot_S100000x128_S128x16_S100000x16_1_0_0_1_n_n.lhsIdx_val_of_single rfl i q
theorem featDot_rhs0 (i : S100000x16.Idx) (q : dot_S100000x128_S128x16_S100000x16_1_0_0_1_n_n.contr.Idx) :
    (dot_S100000x128_S128x16_S100000x16_1_0_0_1_n_n.rhsIdx i q 0).val = (q ⟨0, by decide⟩).val :=
  dot_S100000x128_S128x16_S100000x16_1_0_0_1_n_n.rhsIdx_val_of_single rfl i q
theorem featDot_rhs1 (i : S100000x16.Idx) (q : dot_S100000x128_S128x16_S100000x16_1_0_0_1_n_n.contr.Idx) :
    (dot_S100000x128_S128x16_S100000x16_1_0_0_1_n_n.rhsIdx i q 1).val = (i 1).val := by
  unfold DotDims.rhsIdx
  rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
  rfl

/-- On extended reals the host's product of a [100000, 128] by a [128, 16] array is, at entry `(p, q)`, the plain sum over
    `k` of `x (p, k) * w (k, q)`: the contraction's one axis re-indexed by `Fin 128`. -/
theorem featDot_apply (x : FVec Ideal S100000x128 .f32) (w : FVec Ideal S128x16 .f32) (p : Fin 100000) (q : Fin 16) :
    Host.dotGeneral (F := Ideal) dot_S100000x128_S128x16_S100000x16_1_0_0_1_n_n none x w (ix2 p q) = ∑ k : Fin 128, x (ix2 p k) * w (ix2 k q) := by
  simp only [Host.dotGeneral]
  rw [Ideal.dotGeneral_apply, ← Equiv.sum_comp (ValueIdx.contrEquiv1 dot_S100000x128_S128x16_S100000x16_1_0_0_1_n_n 128 rfl rfl).symm]
  refine Finset.sum_congr rfl fun k _ => ?_
  have hk := ValueIdx.contrEquiv1_symm_val dot_S100000x128_S128x16_S100000x16_1_0_0_1_n_n 128 rfl rfl k
  have el : dot_S100000x128_S128x16_S100000x16_1_0_0_1_n_n.lhsIdx (ix2 p q) ((ValueIdx.contrEquiv1 dot_S100000x128_S128x16_S100000x16_1_0_0_1_n_n 128 rfl rfl).symm k) = ix2 p k := funext fun a => Fin.ext (by
    match a with
    | ⟨0, _⟩ => exact featDot_lhs0 _ _
    | ⟨1, _⟩ => exact (featDot_lhs1 _ _).trans hk)
  have er : dot_S100000x128_S128x16_S100000x16_1_0_0_1_n_n.rhsIdx (ix2 p q) ((ValueIdx.contrEquiv1 dot_S100000x128_S128x16_S100000x16_1_0_0_1_n_n 128 rfl rfl).symm k) = ix2 k q := funext fun a => Fin.ext (by
    match a with
    | ⟨0, _⟩ => exact (featDot_rhs0 _ _).trans hk
    | ⟨1, _⟩ => exact featDot_rhs1 _ _)
  rw [el, er]

/-! ### `dot_S100000x16_S16x1_S100000x1_1_0_0_1_n_n`: [100000, 16] × [16, 1], one contracted axis -/

theorem hidDot_lhs0 (i : S100000x1.Idx) (q : dot_S100000x16_S16x1_S100000x1_1_0_0_1_n_n.contr.Idx) :
    (dot_S100000x16_S16x1_S100000x1_1_0_0_1_n_n.lhsIdx i q 0).val = (i 0).val := by
  unfold DotDims.lhsIdx
  rw [dif_neg (show ¬(0 : Fin S100000x16.rank) ∈ dot_S100000x16_S16x1_S100000x1_1_0_0_1_n_n.lhsBatch by decide), dif_pos (show (0 : Fin S100000x16.rank) ∈ dot_S100000x16_S16x1_S100000x1_1_0_0_1_n_n.lhsNonContracting by decide)]
  rfl
theorem hidDot_lhs1 (i : S100000x1.Idx) (q : dot_S100000x16_S16x1_S100000x1_1_0_0_1_n_n.contr.Idx) :
    (dot_S100000x16_S16x1_S100000x1_1_0_0_1_n_n.lhsIdx i q 1).val = (q ⟨0, by decide⟩).val :=
  dot_S100000x16_S16x1_S100000x1_1_0_0_1_n_n.lhsIdx_val_of_single rfl i q
theorem hidDot_rhs0 (i : S100000x1.Idx) (q : dot_S100000x16_S16x1_S100000x1_1_0_0_1_n_n.contr.Idx) :
    (dot_S100000x16_S16x1_S100000x1_1_0_0_1_n_n.rhsIdx i q 0).val = (q ⟨0, by decide⟩).val :=
  dot_S100000x16_S16x1_S100000x1_1_0_0_1_n_n.rhsIdx_val_of_single rfl i q
theorem hidDot_rhs1 (i : S100000x1.Idx) (q : dot_S100000x16_S16x1_S100000x1_1_0_0_1_n_n.contr.Idx) :
    (dot_S100000x16_S16x1_S100000x1_1_0_0_1_n_n.rhsIdx i q 1).val = (i 1).val := by
  unfold DotDims.rhsIdx
  rw [dif_neg (show ¬(1 : Fin S16x1.rank) ∈ dot_S100000x16_S16x1_S100000x1_1_0_0_1_n_n.rhsBatch by decide), dif_pos (show (1 : Fin S16x1.rank) ∈ dot_S100000x16_S16x1_S100000x1_1_0_0_1_n_n.rhsNonContracting by decide)]
  rfl

/-- On extended reals the host's product of a [100000, 16] by a [16, 1] array is, at entry `(p, q)`, the plain sum over
    `k` of `x (p, k) * w (k, q)`: the contraction's one axis re-indexed by `Fin 16`. -/
theorem hidDot_apply (x : FVec Ideal S100000x16 .f32) (w : FVec Ideal S16x1 .f32) (p : Fin 100000) (q : Fin 1) :
    Host.dotGeneral (F := Ideal) dot_S100000x16_S16x1_S100000x1_1_0_0_1_n_n none x w (ix2 p q) = ∑ k : Fin 16, x (ix2 p k) * w (ix2 k q) := by
  simp only [Host.dotGeneral]
  rw [Ideal.dotGeneral_apply, ← Equiv.sum_comp (ValueIdx.contrEquiv1 dot_S100000x16_S16x1_S100000x1_1_0_0_1_n_n 16 rfl rfl).symm]
  refine Finset.sum_congr rfl fun k _ => ?_
  have hk := ValueIdx.contrEquiv1_symm_val dot_S100000x16_S16x1_S100000x1_1_0_0_1_n_n 16 rfl rfl k
  have el : dot_S100000x16_S16x1_S100000x1_1_0_0_1_n_n.lhsIdx (ix2 p q) ((ValueIdx.contrEquiv1 dot_S100000x16_S16x1_S100000x1_1_0_0_1_n_n 16 rfl rfl).symm k) = ix2 p k := funext fun a => Fin.ext (by
    match a with
    | ⟨0, _⟩ => exact hidDot_lhs0 _ _
    | ⟨1, _⟩ => exact (hidDot_lhs1 _ _).trans hk)
  have er : dot_S100000x16_S16x1_S100000x1_1_0_0_1_n_n.rhsIdx (ix2 p q) ((ValueIdx.contrEquiv1 dot_S100000x16_S16x1_S100000x1_1_0_0_1_n_n 16 rfl rfl).symm k) = ix2 k q := funext fun a => Fin.ext (by
    match a with
    | ⟨0, _⟩ => exact (hidDot_rhs0 _ _).trans hk
    | ⟨1, _⟩ => exact hidDot_rhs1 _ _)
  rw [el, er]

/-! ### The lane broadcast of a column -/

/-- A column [3300000, 1] broadcast along 16 lanes, read at `(p, q)`, is the column at `(p, 0)`: the unit axis reads
    at `0`, the long axis at the same row. -/
theorem lanes_apply (n : FVec Ideal S3300000x1 .f32) (p : Fin 3300000) (q : Fin 16) :
    broadcastInDim S3300000x16 ![0, 1] bcast_S3300000x1_S3300000x16_0_1 n (ix2 p q) = n (ix2 p (0 : Fin 1)) :=
  broadcastInDim_apply ![0, 1] bcast_S3300000x1_S3300000x16_0_1 n (ix2 p q) (ix2 p (0 : Fin 1)) (fun a => by
    match a with
    | ⟨0, _⟩ => exact (if_neg (show ¬ (3300000 : ℕ) = 1 by decide)).symm
    | ⟨1, _⟩ => exact (if_pos (show (1 : ℕ) = 1 from rfl)).symm)

/-- A vector of 3300000 entries made a column [3300000, 1] by a broadcast along a new unit axis, read at `(p, q)`,
    is the vector at `p`. -/
theorem column_apply {α : Type} (v : S3300000.Idx → α) (p : Fin 3300000) (q : Fin 1) :
    broadcastInDim S3300000x1 ![0] bcast_S3300000_S3300000x1_0 v (ix2 p q) = v (ix1 p) :=
  broadcastInDim_apply ![0] bcast_S3300000_S3300000x1_0 v (ix2 p q) (ix1 p) (fun a => by
    match a with
    | ⟨0, _⟩ => exact (if_neg (show ¬ (3300000 : ℕ) = 1 by decide)).symm)

end Cert.ReferenceIdeal.Reading

end
-- ==== Proof.KernelValue.lean ====
/-
  What the idealized kernel's result buffer holds at the end of @main, as a function of the argument arrays: the
  reference's own term.  @main's buffers go through twelve valuations (`Gen.W1 … Gen.W12`): a stretch of host
  operations takes a valuation to the operations' results over it; a kernel launch replaces its output array and leaves
  every other buffer as it was.  The four launches' outputs are, as whole arrays, exactly what the reference computes
  with host operations in their place:
    launch 0  features · W1           = the host's matrix product of the two arguments,
    launch 1  gathered rows · weight   = the host's product with the weight column spread along the 16 lanes,
    launch 2  hidden · W2              = the host's matrix product,
    launch 3  gathered rows · weight   = the host's pointwise product,
  (each by its launch's entry-by-entry value and the host operation read at the same entry), and the one place where
  the two programs lay a vector out differently — the edge weights as a column, by a reshape in the kernel's program and
  by a broadcast along a new unit axis in the reference — is the same column entry by entry.  Everything else in the
  two programs is the same host operation applied to the same operands (the degree count, its inverse square root, the
  gathers along the edge list, the scatter-adds back onto the nodes, the biases, the rectifier), so once the launches
  are replaced by the host forms the two result terms coincide.  No law of the extended reals beyond "0 + x = x"
  inside the matrix products is used, and the precondition is never opened.
-/
import proofs.«171452_j25632364822987_2_alg».proof.Proof.Gen.KernelIdeal.Frame
import proofs.«171452_j25632364822987_2_alg».proof.Proof.FeatureProjection
import proofs.«171452_j25632364822987_2_alg».proof.Proof.HiddenProjection
import proofs.«171452_j25632364822987_2_alg».proof.Proof.EdgeScaleWide
import proofs.«171452_j25632364822987_2_alg».proof.Proof.EdgeScaleNarrow
import proofs.«171452_j25632364822987_2_alg».proof.Proof.HostReadings
import proofs.«171452_j25632364822987_2_alg».proof.Proof.ReferenceRun
import Idealize.ShloMosaic.Lib.StableHlo.Run
import Idealize.ShloMosaic.Lib.ValueIdx
import Idealize.ShloMosaic.Lib.Pipeline.Value

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen

/-- A column [3300000, 1] broadcasts along the lanes to [3300000, 16]. -/
theorem lanes_bcast : S3300000x1.BroadcastsInDim S3300000x16 (![0, 1] : Fin 2 → Fin S3300000x16.rank) := by decide

set_option maxRecDepth 8192 in
/-- The result as ONE term of the argument arrays, in this program's own shapes and records: the degree count by a
    scatter-add of ones over the edge targets, its inverse square root where positive, the edge weights as the product of
    the two gathered ends, and two layers "matrix product, gather along the sources, scale by the weight, scatter-add
    over the targets, add the bias", the first followed by the rectifier.  The two matrix products are the host's. -/
def resultTerm {F : FTy → Type} [FloatOps F] (m : (ℓ : Loc nD τ sig) → Buf (Elt F) ℓ) (c : Dev nD) :
    Buf (Elt F) ((c.tc : Thread nD τ).loc main_v61) :=
  addf (Host.scatterAdd scatter_S100000x1_S3300000x1_S3300000x1_1_0_0_1 (broadcastInDim S100000x1 ![] bcast_S_S100000x1 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (Host.gather gather_S100000x1_S3300000x1_S3300000x1_1_0_n_n_0_1_11 (Host.dotGeneral Cert.ReferenceIdeal.dot_S100000x16_S16x1_S100000x1_1_0_0_1_n_n none (maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (Host.gather gather_S100000x16_S3300000x1_S3300000x16_1_0_n_n_0_1_116 (Host.dotGeneral Cert.ReferenceIdeal.dot_S100000x128_S128x16_S100000x16_1_0_0_1_n_n none (m ((c.tc : Thread nD τ).loc main_arg0)) (m ((c.tc : Thread nD τ).loc main_arg2))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (broadcastInDim S3300000x16 ![0, 1] lanes_bcast (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant S_ .f32 0x00000000#32))) (m ((c.tc : Thread nD τ).loc main_arg4))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)))))))) (broadcastInDim S100000x1 ![0, 1] bcast_S1x1_S100000x1_0_1 (broadcastInDim S1x1 ![1] bcast_S1_S1x1_1 (m ((c.tc : Thread nD τ).loc main_arg5))))

variable (m : (ℓ : Loc nD τ sig) → Buf (Elt Ideal) ℓ) (ρ : Dev nD → PrngReg)

/-! ## The launches' outputs as host operations of their inputs -/

/-- Launch 0 leaves in its output array the host's matrix product of its two input arrays. -/
theorem features_out (c : Dev nD) :
    W4 m ρ c (no_index (Proc.devRef .tc main_v31))
      = Host.dotGeneral (F := Ideal) (φ₁ := .f32) (φ₂ := .f32) Cert.ReferenceIdeal.dot_S100000x128_S128x16_S100000x16_1_0_0_1_n_n none
          (W3 m ρ c (Proc.devRef .tc main_arg0)) (W3 m ρ c (Proc.devRef .tc main_arg2)) := by
  refine (W4_arr m ρ c 2).trans (funext fun i => ?_)
  obtain ⟨p, q, rfl⟩ : ∃ (p : Fin 100000) (q : Fin 16), i = ix2 p q := ⟨i 0, i 1, eq_ix2 i⟩
  exact (RegionValue.region0_value (V3 m ρ) c _ _ _ rfl rfl rfl p q).trans
    (Cert.ReferenceIdeal.Reading.featDot_apply _ _ p q).symm

/-- Launch 1 leaves in its output array its first input times its second, a column, spread along the 16 lanes. -/
theorem wide_out (c : Dev nD) :
    W6 m ρ c (no_index (Proc.devRef .tc main_v39))
      = mulf (F := Ideal) (s := S3300000x16) (φ := .f32) (W5 m ρ c (Proc.devRef .tc main_v38))
          (broadcastInDim S3300000x16 ![0, 1] lanes_bcast (W5 m ρ c (Proc.devRef .tc main_v30))) := by
  refine (W6_arr m ρ c 2).trans (funext fun i => ?_)
  obtain ⟨p, q, rfl⟩ : ∃ (p : Fin 3300000) (q : Fin 16), i = ix2 p q := ⟨i 0, i 1, eq_ix2 i⟩
  have e := RegionValue.region1_value (V5 m ρ) c _ _ _ rfl rfl rfl p q
  have hl := Cert.ReferenceIdeal.Reading.lanes_apply (W5 m ρ c (Proc.devRef .tc main_v30)) p q
  have key : ∀ (x y z : EReal), y = z → x * z = x * y := fun x y z h => by rw [h]
  exact e.trans (key _ _ _ hl)

/-- Launch 2 leaves in its output array the host's matrix product of its two input arrays. -/
theorem hidden_out (c : Dev nD) :
    W9 m ρ c (no_index (Proc.devRef .tc main_v47))
      = Host.dotGeneral (F := Ideal) (φ₁ := .f32) (φ₂ := .f32) Cert.ReferenceIdeal.dot_S100000x16_S16x1_S100000x1_1_0_0_1_n_n none
          (W8 m ρ c (Proc.devRef .tc main_v46)) (W8 m ρ c (Proc.devRef .tc main_arg4)) := by
  refine (W9_arr m ρ c 2).trans (funext fun i => ?_)
  obtain ⟨p, q, rfl⟩ : ∃ (p : Fin 100000) (q : Fin 1), i = ix2 p q := ⟨i 0, i 1, eq_ix2 i⟩
  exact (RegionValue.region2_value (V8 m ρ) c _ _ _ rfl rfl rfl p q).trans
    (Cert.ReferenceIdeal.Reading.hidDot_apply _ _ p q).symm

/-- Launch 3 leaves in its output array the pointwise product of its two input arrays. -/
theorem narrow_out (c : Dev nD) :
    W11 m ρ c (no_index (Proc.devRef .tc main_v55))
      = mulf (F := Ideal) (s := S3300000x1) (φ := .f32) (W10 m ρ c (Proc.devRef .tc main_v54)) (W10 m ρ c (Proc.devRef .tc main_v30)) := by
  refine (W11_arr m ρ c 2).trans (funext fun i => ?_)
  obtain ⟨p, q, rfl⟩ : ∃ (p : Fin 3300000) (q : Fin 1), i = ix2 p q := ⟨i 0, i 1, eq_ix2 i⟩
  exact RegionValue.region3_value (V10 m ρ) c _ _ _ rfl rfl rfl p q

/-! ## A launch leaves every buffer that is not one of its arrays as it found it; an input array too -/

theorem features_keep (c : Dev nD) (b : Ref sig .tc) (hb : ∀ w, Pipeline.arrRef spec0 w ≠ b) :
    W4 m ρ c (no_index (Proc.devRef .tc b)) = W3 m ρ c (Proc.devRef .tc b) := W4_of_ne m ρ c b hb
theorem wide_keep (c : Dev nD) (b : Ref sig .tc) (hb : ∀ w, Pipeline.arrRef spec1 w ≠ b) :
    W6 m ρ c (no_index (Proc.devRef .tc b)) = W5 m ρ c (Proc.devRef .tc b) := W6_of_ne m ρ c b hb
theorem hidden_keep (c : Dev nD) (b : Ref sig .tc) (hb : ∀ w, Pipeline.arrRef spec2 w ≠ b) :
    W9 m ρ c (no_index (Proc.devRef .tc b)) = W8 m ρ c (Proc.devRef .tc b) := W9_of_ne m ρ c b hb
theorem narrow_keep (c : Dev nD) (b : Ref sig .tc) (hb : ∀ w, Pipeline.arrRef spec3 w ≠ b) :
    W11 m ρ c (no_index (Proc.devRef .tc b)) = W10 m ρ c (Proc.devRef .tc b) := W11_of_ne m ρ c b hb

/-- The edge-weight column is launch 1's second INPUT: an input array ends the launch as it entered it (it is read
    again by launch 3). -/
theorem wide_keeps_weights (c : Dev nD) :
    W6 m ρ c (no_index (Proc.devRef .tc main_v30)) = W5 m ρ c (Proc.devRef .tc main_v30) :=
  (W6_arr m ρ c 1).trans (((dat1 (V5 m ρ) c).arrAt_in 1 rfl _).trans (A_eq1 (V5 m ρ) c 1))

/-! ## The edge weights as a column: a reshape and a broadcast along a new unit axis are the same array -/

/-- A vector of 3300000 entries reshaped to [3300000, 1] is the vector broadcast along a new unit axis: both read the
    vector at the row. -/
theorem column_of_reshape (v : Vec Ideal S3300000 .f32) (h : S3300000.ShapeCasts main_v30.ty.shape) :
    shapeCast main_v30.ty.shape v h
      = broadcastInDim S3300000x1 ![0] bcast_S3300000_S3300000x1_0 v := by
  funext i
  obtain ⟨p, q, rfl⟩ : ∃ (p : Fin 3300000) (q : Fin 1), i = ix2 p q := ⟨i 0, i 1, eq_ix2 i⟩
  refine (shapeCast_apply v h (ix2 p q) (ix1 p) ?_).trans (Cert.ReferenceIdeal.Reading.column_apply v p q).symm
  have e1 : (S3300000.rowMajor (ix1 p)).val = p.val := Shape.rowMajor_val_one (d := ![3300000]) (ix1 p)
  have e2 : (S3300000x1.rowMajor (ix2 p q)).val = p.val * 1 + q.val := Shape.rowMajor_val_two (d := ![3300000, 1]) (ix2 p q)
  have hq : q.val = 0 := by omega
  refine e1.trans (Eq.trans ?_ e2.symm)
  omega

/-- The one reshape of @main whose result the two programs spell differently: the edge weights made a column.  Under
    any valuation its result is the weights broadcast along a new unit axis. -/
theorem weights_column (he : main_v29.ty.elt = main_v30.ty.elt) (hn : main_v29.ty.shape.ShapeCasts main_v30.ty.shape)
    (hx : main_v29.space ≠ .host ∧ (main_v29 : DevRef τ sig).isScoped = false)
    (hy : main_v30.space ≠ .host ∧ (main_v30 : DevRef τ sig).isScoped = false)
    (F : Valuation τ sig (Elt Ideal)) :
    (reshape (τ := τ) (Val := Elt Ideal) main_v29 main_v30 he hn hx hy).result F (no_index (Proc.devRef .tc main_v30))
      = broadcastInDim S3300000x1 ![0] bcast_S3300000_S3300000x1_0 (F (Proc.devRef .tc main_v29)) := by
  refine (reshape_result main_v29 main_v30 he hn hx hy F).trans (funext fun i => ?_)
  exact congrFun (column_of_reshape (F (Proc.devRef .tc main_v29)) hn) i

/-! ## The result -/

/-- One pass over the fold of @main: a host stretch's results over the valuation it starts from, a launch's output at
    its host form, every other buffer carried through. -/
macro "chain_simp" : tactic =>
  `(tactic| simp (disch := decide) only [W12, W10, W8, W7, W5, W3, W2, W1,
    hostOps0, hostOps0_1, hostOps0_2, hostOps1, hostOps2, hostOps2_1, hostOps3, hostOps4,
    after_cons, after_nil,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    features_out, wide_out, hidden_out, narrow_out, features_keep, wide_keep, hidden_keep, narrow_keep, wide_keeps_weights,
    weights_column, cast_eq, id_eq])

set_option maxRecDepth 16384 in
set_option maxHeartbeats 4000000 in
/-- The kernel's result buffer under the last valuation is that one term: the fold of @main read back launch by
    launch and stretch by stretch. -/
theorem result_chain (c : Dev nD) : W12 m ρ c (Proc.devRef .tc main_v61) = resultTerm (F := Ideal) m c := by
  unfold resultTerm
  chain_simp
  rfl

set_option maxRecDepth 8192 in
set_option maxHeartbeats 2000000 in
/-- The reference's composed term of arguments that agree with the kernel program's is the same term: the two spell the
    same operations over their own copies of the shapes and records. -/
theorem resultTerm_eq (m' : (ℓ : Loc Cert.ReferenceIdeal.nD Cert.ReferenceIdeal.τ Cert.ReferenceIdeal.sig) → Buf (Elt Ideal) ℓ) (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.ValueP.res_main_v63 m' c = resultTerm (F := Ideal) m c := by
  obtain ⟨h0, h1, h2, h3, h4, h5⟩ := hagree
  unfold Cert.ReferenceIdeal.ValueP.res_main_v63 resultTerm
  rw [h0, h1, h2, h3, h4, h5]
  rfl

/-- The reference's composed term of arguments that agree is the kernel program's result buffer under its last valuation. -/
theorem result_eq (m' : (ℓ : Loc Cert.ReferenceIdeal.nD Cert.ReferenceIdeal.τ Cert.ReferenceIdeal.sig) → Buf (Elt Ideal) ℓ) (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.ValueP.res_main_v63 m' c = W12 m ρ c (Proc.devRef .tc main_v61) :=
  (resultTerm_eq m m' c hagree).trans (result_chain m ρ c).symm

end Cert.KernelIdeal.Chain

end
-- ==== Proof.lean ====
/-
  The certificate of a two-layer graph convolution: a Pallas kernel program (two matrix products and two edge-wise
  scalings as kernel launches, with the degree normalisation, the gathers along the edge list and the scatter-adds
  back onto the nodes as host operations between them) against the plain reference, on extended reals.

  The two programs are the same computation, operation by operation:
    deg = scatter-add of ones over the edge targets (self loops appended),  dis = where(deg > 0, rsqrt deg, 0),
    weight(e) = dis[source e] · dis[target e],
    layer(h, W, b) = scatter-add over targets of (h · W)[source e] · weight(e), plus b,
    result = layer(relu(layer(x, W1, b1)), W2, b2).
  They differ only in that the kernel's program computes the two products h · W and the two scalings by weight(e)
  in tiled launches (the matrix products through a rounding to bf16 and a zero accumulator, both the identity on
  extended reals), and lays the weights out as a column by a reshape where the reference broadcasts along a new unit
  axis.  Each launch's output array is shown entry by entry to be the host operation the reference applies in its
  place (the row blocks of a launch tile its output; a block's entry is the body's pure function of the input blocks;
  a matrix product entry is the plain sum over the contracted index), and with the launches so replaced the kernel
  program's result term is the reference's.  No algebraic law beyond the additive unit is needed, so the finiteness
  precondition is never used.

  The frames: the two kernel programs' from their launch-by-launch runs; the reference's from its run with the result
  dropped.  The idealization rewrote nothing, so `preserves` is trivial.
-/
import proofs.«171452_j25632364822987_2_alg».proof.Defs
import proofs.«171452_j25632364822987_2_alg».proof.Proof.Gen.Kernel
import proofs.«171452_j25632364822987_2_alg».proof.Proof.Gen.Kernel.Skeleton
import proofs.«171452_j25632364822987_2_alg».proof.Proof.Gen.Kernel.Launch
import proofs.«171452_j25632364822987_2_alg».proof.Proof.Gen.Kernel.Points
import proofs.«171452_j25632364822987_2_alg».proof.Proof.Gen.Kernel.Frame
import proofs.«171452_j25632364822987_2_alg».proof.Proof.Gen.KernelIdeal
import proofs.«171452_j25632364822987_2_alg».proof.Proof.Gen.KernelIdeal.Skeleton
import proofs.«171452_j25632364822987_2_alg».proof.Proof.Gen.KernelIdeal.Launch
import proofs.«171452_j25632364822987_2_alg».proof.Proof.Gen.KernelIdeal.Points
import proofs.«171452_j25632364822987_2_alg».proof.Proof.Gen.KernelIdeal.Frame
import proofs.«171452_j25632364822987_2_alg».proof.Proof.Gen.ReferenceIdeal
import proofs.«171452_j25632364822987_2_alg».proof.Proof.Gen.Pre_finite_inputs
import proofs.«171452_j25632364822987_2_alg».proof.Proof.KernelRun
import proofs.«171452_j25632364822987_2_alg».proof.Proof.KernelValue
import proofs.«171452_j25632364822987_2_alg».proof.Proof.ReferenceRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs run; the kernel program's result buffer ends at its value under the last valuation of
    its buffers (with the arguments as launched), and the reference's result term is that value. -/
theorem algebraic : Cert.algebraic_KernelIdeal_ReferenceIdeal := by
  intro m ρ m' ρ' _ hagree
  refine ⟨fun c => Cert.KernelIdeal.Gen.W12 m ρ c (Proc.devRef .tc Cert.KernelIdeal.main_v61), ?_, ?_⟩
  · refine (θ_run Cert.KernelIdeal.defs _ _).mono (fun r h c => ?_) (Cert.KernelIdeal.Run.run_all m ρ)
    exact ⟨h c _ (Cert.KernelIdeal.Gen.mem_uc Cert.KernelIdeal.main_v61 (by decide)),
      (h c _ (Cert.KernelIdeal.Gen.mem_uc Cert.KernelIdeal.main_arg0 (by decide))).trans (Cert.KernelIdeal.Gen.W12_main_arg0 m ρ c),
      (h c _ (Cert.KernelIdeal.Gen.mem_uc Cert.KernelIdeal.main_arg1 (by decide))).trans (Cert.KernelIdeal.Gen.W12_main_arg1 m ρ c),
      (h c _ (Cert.KernelIdeal.Gen.mem_uc Cert.KernelIdeal.main_arg2 (by decide))).trans (Cert.KernelIdeal.Gen.W12_main_arg2 m ρ c),
      (h c _ (Cert.KernelIdeal.Gen.mem_uc Cert.KernelIdeal.main_arg3 (by decide))).trans (Cert.KernelIdeal.Gen.W12_main_arg3 m ρ c),
      (h c _ (Cert.KernelIdeal.Gen.mem_uc Cert.KernelIdeal.main_arg4 (by decide))).trans (Cert.KernelIdeal.Gen.W12_main_arg4 m ρ c),
      (h c _ (Cert.KernelIdeal.Gen.mem_uc Cert.KernelIdeal.main_arg5 (by decide))).trans (Cert.KernelIdeal.Gen.W12_main_arg5 m ρ c)⟩
  · refine (θ_run Cert.ReferenceIdeal.defs _ _).mono (fun _ h c => ⟨(h c).1.trans ?_, (h c).2⟩)
      (Cert.ReferenceIdeal.ValueP.run (F := Ideal) m' ρ')
    exact Cert.KernelIdeal.Chain.result_eq m ρ m' c (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
